-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v32)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x128 : Shape := ⟨2, ![4096, 128]⟩
abbrev S2x262144 : Shape := ⟨2, ![2, 262144]⟩
abbrev S4096x4096x16 : Shape := ⟨3, ![4096, 4096, 16]⟩
abbrev S144x128 : Shape := ⟨2, ![144, 128]⟩
abbrev S128 : Shape := ⟨1, ![128]⟩
abbrev S128x128 : Shape := ⟨2, ![128, 128]⟩
abbrev S_ : Shape := ⟨0, ![]⟩

class Facts : Prop where
  bcast_S_S4096x128 : S_.BroadcastsInDim S4096x128 (![] : Fin 0 → Fin S4096x128.rank)
  reducesTo_S4096x128_S_d0_1 : S4096x128.ReducesTo [0, 1] S_
  h_S_ : 0 < S_.numel
  bcast_S_S4096x4096x16 : S_.BroadcastsInDim S4096x4096x16 (![] : Fin 0 → Fin S4096x4096x16.rank)
  reducesTo_S4096x4096x16_S_d0_1_2 : S4096x4096x16.ReducesTo [0, 1, 2] S_
  bcast_S_S144x128 : S_.BroadcastsInDim S144x128 (![] : Fin 0 → Fin S144x128.rank)
  reducesTo_S144x128_S_d0_1 : S144x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_

variable [Facts]

def fn_part1 {F : FTy → Type} [FloatOps F] (main_arg5 : FVec F S128x128 .f32) (main_arg6 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S4096x128 .f32) (main_arg1 : IVec S2x262144 32) (main_arg2 : FVec F S4096x4096x16 .f32) (main_arg3 : FVec F S144x128 .f32) (main_arg4 : FVec F S128 .f32) (main_arg5 : FVec F S128x128 .f32) (main_arg6 : FVec F S128 .f32) : IVec S_ 1 :=
  let main_v0 : FVec F S4096x128 .f32 := Host.absf main_arg0
  let main_cst : FVec F S_ .f32 := constant S_ .f32 0x7F800000#32
  let main_v1 : FVec F S4096x128 .f32 := broadcastInDim S4096x128 ![] bcast_S_S4096x128 main_cst
  let main_v2 : IVec S4096x128 1 := cmpf .olt main_v0 main_v1
  let main_c : IVec S_ 1 := constantI S_ 1 1#1
  let main_v3 : IVec S_ 1 := (fun x v => Host.reduce IntOp.andi x v reducesTo_S4096x128_S_d0_1 h_S_) main_v2 main_c
  let main_v4 : FVec F S4096x4096x16 .f32 := Host.absf main_arg2
  let main_cst_0 : FVec F S_ .f32 := constant S_ .f32 0x7F800000#32
  let main_v5 : FVec F S4096x4096x16 .f32 := broadcastInDim S4096x4096x16 ![] bcast_S_S4096x4096x16 main_cst_0
  let main_v6 : IVec S4096x4096x16 1 := cmpf .olt main_v4 main_v5
  let main_c_1 : IVec S_ 1 := constantI S_ 1 1#1
  let main_v7 : IVec S_ 1 := (fun x v => Host.reduce IntOp.andi x v reducesTo_S4096x4096x16_S_d0_1_2 h_S_) main_v6 main_c_1
  let main_v8 : IVec S_ 1 := andi main_v3 main_v7
  let main_v9 : FVec F S144x128 .f32 := Host.absf main_arg3
  let main_cst_2 : FVec F S_ .f32 := constant S_ .f32 0x7F800000#32
  let main_v10 : FVec F S144x128 .f32 := broadcastInDim S144x128 ![] bcast_S_S144x128 main_cst_2
  let main_v11 : IVec S144x128 1 := cmpf .olt main_v9 main_v10
  let main_c_3 : IVec S_ 1 := constantI S_ 1 1#1
  let main_v12 : IVec S_ 1 := (fun x v => Host.reduce IntOp.andi x v reducesTo_S144x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_v13 main_v16
-- ==== Kernel.lean ====
abbrev S4096x128 : Shape := ⟨2, ![4096, 128]⟩
abbrev S2x262144 : Shape := ⟨2, ![2, 262144]⟩
abbrev S4096x4096x16 : Shape := ⟨3, ![4096, 4096, 16]⟩
abbrev S144x128 : Shape := ⟨2, ![144, 128]⟩
abbrev S128 : Shape := ⟨1, ![128]⟩
abbrev S128x128 : Shape := ⟨2, ![128, 128]⟩
abbrev S1x262144 : Shape := ⟨2, ![1, 262144]⟩
abbrev S262144 : Shape := ⟨1, ![262144]⟩
abbrev S_ : Shape := ⟨0, ![]⟩
abbrev S262144x1 : Shape := ⟨2, ![262144, 1]⟩
abbrev S262144x128 : Shape := ⟨2, ![262144, 128]⟩
abbrev S262144x2 : Shape := ⟨2, ![262144, 2]⟩
abbrev S262144x16 : Shape := ⟨2, ![262144, 16]⟩
abbrev S16x128 : Shape := ⟨2, ![16, 128]⟩
abbrev S1x128 : Shape := ⟨2, ![1, 128]⟩
abbrev S4096x16 : Shape := ⟨2, ![4096, 16]⟩

abbrev nBuf : Space → Nat
  | .hbm => 47
  | .vmem => 11
  | .smem => 0
  | _ => 0

abbrev bufTy : (tb : Table) → Fin (tcTables nBuf tb) → BufTy
  | .hbm, ⟨0, _⟩ => ⟨S4096x128, .f32⟩
  | .hbm, ⟨1, _⟩ => ⟨S2x262144, .i32⟩
  | .hbm, ⟨2, _⟩ => ⟨S4096x4096x16, .f32⟩
  | .hbm, ⟨3, _⟩ => ⟨S144x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S1x262144, .i32⟩
  | .hbm, ⟨8, _⟩ => ⟨S262144, .i32⟩
  | .hbm, ⟨9, _⟩ => ⟨S1x262144, .i32⟩
  | .hbm, ⟨10, _⟩ => ⟨S262144, .i32⟩
  | .hbm, ⟨11, _⟩ => ⟨S_, .i32⟩
  | .hbm, ⟨12, _⟩ => ⟨S262144, .i32⟩
  | .hbm, ⟨13, _⟩ => ⟨S262144, .i1⟩
  | .hbm, ⟨14, _⟩ => ⟨S_, .i32⟩
  | .hbm, ⟨15, _⟩ => ⟨S262144, .i32⟩
  | .hbm, ⟨16, _⟩ => ⟨S262144, .i32⟩
  | .hbm, ⟨17, _⟩ => ⟨S262144, .i32⟩
  | .hbm, ⟨18, _⟩ => ⟨S262144x1, .i32⟩
  | .hbm, ⟨19, _⟩ => ⟨S262144x128, .f32⟩
  | .hbm, ⟨20, _⟩ => ⟨S_, .i32⟩
  | .hbm, ⟨21, _⟩ => ⟨S262144, .i32⟩
  | .hbm, ⟨22, _⟩ => ⟨S262144, .i1⟩
  | .hbm, ⟨23, _⟩ => ⟨S_, .i32⟩
  | .hbm, ⟨24, _⟩ => ⟨S262144, .i32⟩
  | .hbm, ⟨25, _⟩ => ⟨S262144, .i32⟩
  | .hbm, ⟨26, _⟩ => ⟨S262144, .i32⟩
  | .hbm, ⟨27, _⟩ => ⟨S_, .i32⟩
  | .hbm, ⟨28, _⟩ => ⟨S262144, .i32⟩
  | .hbm, ⟨29, _⟩ => ⟨S262144, .i1⟩
  | .hbm, ⟨30, _⟩ => ⟨S_, .i32⟩
  | .hbm, ⟨31, _⟩ => ⟨S262144, .i32⟩
  | .hbm, ⟨32, _⟩ => ⟨S262144, .i32⟩
  | .hbm, ⟨33, _⟩ => ⟨S262144, .i32⟩
  | .hbm, ⟨34, _⟩ => ⟨S262144x1, .i32⟩
  | .hbm, ⟨35, _⟩ => ⟨S262144x1, .i32⟩
  | .hbm, ⟨36, _⟩ => ⟨S262144x2, .i32⟩
  | .hbm, ⟨37, _⟩ => ⟨S262144x16, .f32⟩
  | .hbm, ⟨38, _⟩ => ⟨S128x128, .f32⟩
  | .hbm, ⟨39, _⟩ => ⟨S16x128, .f32⟩
  | .hbm, ⟨40, _⟩ => ⟨S1x128, .f32⟩
  | .hbm, ⟨41, _⟩ => ⟨S1x128, .f32⟩
  | .hbm, ⟨42, _⟩ => ⟨S262144x128, .f32⟩
  | .hbm, ⟨43, _⟩ => ⟨S_, .f32⟩
  | .hbm, ⟨44, _⟩ => ⟨S4096x128, .f32⟩
  | .hbm, ⟨45, _⟩ => ⟨S262144x1, .i32⟩
  | .hbm, ⟨46, _⟩ => ⟨S4096x128, .f32⟩
  | .local _ .vmem, ⟨0, _⟩ => ⟨S4096x128, .f32⟩
  | .local _ .vmem, ⟨1, _⟩ => ⟨S4096x128, .f32⟩
  | .local _ .vmem, ⟨2, _⟩ => ⟨S4096x16, .f32⟩
  | .local _ .vmem, ⟨3, _⟩ => ⟨S4096x16, .f32⟩
  | .local _ .vmem, ⟨4, _⟩ => ⟨S128x128, .f32⟩
  | .local _ .vmem, ⟨5, _⟩ => ⟨S16x128, .f32⟩
  | .local _ .vmem, ⟨6, _⟩ => ⟨S1x128, .f32⟩
  | .local _ .vmem, ⟨7, _⟩ => ⟨S128x128, .f32⟩
  | .local _ .vmem, ⟨8, _⟩ => ⟨S1x128, .f32⟩
  | .local _ .vmem, ⟨9, _⟩ => ⟨S4096x128, .f32⟩
  | .local _ .vmem, ⟨10, _⟩ => ⟨S4096x128, .f32⟩
  | _, _ => ⟨S4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_c_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c_1 : Ref sig .tc := ⟨.hbm, 20, rfl⟩
abbrev main_v11 : Ref sig .tc := ⟨.hbm, 21, rfl⟩
abbrev main_v12 : Ref sig .tc := ⟨.hbm, 22, rfl⟩
abbrev main_c_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_c_3 : Ref sig .tc := ⟨.hbm, 27, rfl⟩
abbrev main_v16 : Ref sig .tc := ⟨.hbm, 28, rfl⟩
abbrev main_v17 : Ref sig .tc := ⟨.hbm, 29, rfl⟩
abbrev main_c_4 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S16x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S4096x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  slices_S2x262144_S1x262144_0_0 : S2x262144.Slices ![0, 0] S1x262144
  shapeCasts_S1x262144_S262144 : S1x262144.ShapeCasts S262144
  slices_S2x262144_S1x262144_1_0 : S2x262144.Slices ![1, 0] S1x262144
  bcast_S_S262144 : S_.BroadcastsInDim S262144 (![] : Fin 0 → Fin S262144.rank)
  bcast_S262144_S262144x1_0 : S262144.BroadcastsInDim S262144x1 (![0] : Fin 1 → Fin S262144x1.rank)
  concatenates_S262144x1_S262144x1_S262144x2_d1 : Shape.Concatenates [S262144x1, S262144x1] S262144x2 1
  slices_S144x128_S128x128_0_0 : S144x128.Slices ![0, 0] S128x128
  slices_S144x128_S16x128_128_0 : S144x128.Slices ![128, 0] S16x128
  shapeCasts_S128_S1x128 : S128.ShapeCasts S1x128
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  bitsLt_bf16_f32 : FTy.bits .bf16 < FTy.bits .f32
  inb_S4096x16_S4096x16_0_0 : ∀ a, (![0, 0] : Fin 2 → Nat) a + S4096x16.size a ≤ S4096x16.size a
  h_S4096x16 : 0 < S4096x16.numel
  shapeCasts_S4096x16_S4096x16 : S4096x16.ShapeCasts S4096x16
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S16x128_S16x128_0_0 : ∀ a, (![0, 0] : Fin 2 → Nat) a + S16x128.size a ≤ S16x128.size a
  h_S16x128 : 0 < S16x128.numel
  shapeCasts_S16x128_S16x128 : S16x128.ShapeCasts S16x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4096x128 : S1x128.Broadcasts S4096x128
  bcast_S_S4096x128 : S_.BroadcastsInDim S4096x128 (![] : Fin 0 → Fin S4096x128.rank)
  gather_S4096x128_S262144x1_S262144x128_1_0_n_n_0_1_1128_wf : GatherDims.WF S4096x128 S262144x1 S262144x128 [1] [0] [] [0] [] 1 ![1, 128]
  gather_S4096x4096x16_S262144x2_S262144x16_1_01_n_n_01_1_1116_wf : GatherDims.WF S4096x4096x16 S262144x2 S262144x16 [1] [0, 1] [] [0, 1] [] 1 ![1, 1, 16]
  dot_S4096x128_S128x128_S4096x128_1_0_0_1_n_n_wf : DotDims.WF S4096x128 S128x128 S4096x128 [1] [0] [0] [1] [] []
  dot_S4096x16_S16x128_S4096x128_1_0_0_1_n_n_wf : DotDims.WF S4096x16 S16x128 S4096x128 [1] [0] [0] [1] [] []
  scatter_S4096x128_S262144x1_S262144x128_1_0_0_1_wf : ScatterDims.WF S4096x128 S262144x1 S262144x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x128.size a ≤ S262144x128.size a
  hwx0_0 : ∀ i : grid0.Coords, EltTy.bits .f32 = 32 ∨ (Rect.block (s := S262144x128) S4096x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x16.size a ≤ S262144x16.size a
  hwx0_1 : ∀ i : grid0.Coords, EltTy.bits .f32 = 32 ∨ (Rect.block (s := S262144x16) S4096x16.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S16x128.size a ≤ S16x128.size a
  hwx0_3 : ∀ i : grid0.Coords, EltTy.bits .f32 = 32 ∨ (Rect.block (s := S16x128) S16x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S4096x128.size a ≤ S262144x128.size a
  hwx0_7 : ∀ i : grid0.Coords, EltTy.bits .f32 = 32 ∨ (Rect.block (s := S262144x128) S4096x128.size (cc0_transform_7 i) (hinb0_7 i)).WholeWords (EltTy.packing .f32)

variable [Facts₀]

def gather_S4096x128_S262144x1_S262144x128_1_0_n_n_0_1_1128 : GatherDims S4096x128 S262144x1 S262144x128 where
  offsetDims := [1]
  collapsedSliceDims := [0]
  operandBatchingDims := []
  startIndicesBatchingDims := []
  startIndexMap := [0]
  indexVectorDim := 1
  sliceSizes := ![1, 128]
  wf := gather_S4096x128_S262144x1_S262144x128_1_0_n_n_0_1_1128_wf
def gather_S4096x4096x16_S262144x2_S262144x16_1_01_n_n_01_1_1116 : GatherDims S4096x4096x16 S262144x2 S262144x16 where
  offsetDims := [1]
  collapsedSliceDims := [0, 1]
  operandBatchingDims := []
  startIndicesBatchingDims := []
  startIndexMap := [0, 1]
  indexVectorDim := 1
  sliceSizes := ![1, 1, 16]
  wf := gather_S4096x4096x16_S262144x2_S262144x16_1_01_n_n_01_1_1116_wf
def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf
def dot_S4096x16_S16x128_S4096x128_1_0_0_1_n_n : DotDims S4096x16 S16x128 S4096x128 where
  lhsContracting := [1]
  rhsContracting := [0]
  lhsNonContracting := [0]
  rhsNonContracting := [1]
  lhsBatch := []
  rhsBatch := []
  wf := dot_S4096x16_S16x128_S4096x128_1_0_0_1_n_n_wf
def scatter_S4096x128_S262144x1_S262144x128_1_0_0_1 : ScatterDims S4096x128 S262144x1 S262144x128 where
  updateWindowDims := [1]
  insertedWindowDims := [0]
  scatterDimsToOperandDims := [0]
  indexVectorDim := 1
  wf := scatter_S4096x128_S262144x1_S262144x128_1_0_0_1_wf

abbrev win0_0 : Pipeline.Window sig grid0 :=
  Pipeline.Window.ofSpec (Memref.whole main_v10) S4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v24) S4096x16.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v25) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v26) S16x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v27) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v28) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v29) S4096x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S4096x128 : Shape := ⟨2, ![4096, 128]⟩
abbrev S2x262144 : Shape := ⟨2, ![2, 262144]⟩
abbrev S4096x4096x16 : Shape := ⟨3, ![4096, 4096, 16]⟩
abbrev S144x128 : Shape := ⟨2, ![144, 128]⟩
abbrev S128 : Shape := ⟨1, ![128]⟩
abbrev S128x128 : Shape := ⟨2, ![128, 128]⟩
abbrev S1x262144 : Shape := ⟨2, ![1, 262144]⟩
abbrev S262144 : Shape := ⟨1, ![262144]⟩
abbrev S_ : Shape := ⟨0, ![]⟩
abbrev S262144x1 : Shape := ⟨2, ![262144, 1]⟩
abbrev S262144x128 : Shape := ⟨2, ![262144, 128]⟩
abbrev S262144x2 : Shape := ⟨2, ![262144, 2]⟩
abbrev S262144x16 : Shape := ⟨2, ![262144, 16]⟩
abbrev S262144x144 : Shape := ⟨2, ![262144, 144]⟩
abbrev S1x128 : Shape := ⟨2, ![1, 128]⟩

abbrev nBuf : Space → Nat
  | .hbm => 57
  | .vmem => 0
  | .smem => 0
  | _ => 0

abbrev bufTy : (tb : Table) → Fin (tcTables nBuf tb) → BufTy
  | .hbm, ⟨0, _⟩ => ⟨S4096x128, .f32⟩
  | .hbm, ⟨1, _⟩ => ⟨S2x262144, .i32⟩
  | .hbm, ⟨2, _⟩ => ⟨S4096x4096x16, .f32⟩
  | .hbm, ⟨3, _⟩ => ⟨S144x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S1x262144, .i32⟩
  | .hbm, ⟨8, _⟩ => ⟨S262144, .i32⟩
  | .hbm, ⟨9, _⟩ => ⟨S1x262144, .i32⟩
  | .hbm, ⟨10, _⟩ => ⟨S262144, .i32⟩
  | .hbm, ⟨11, _⟩ => ⟨S_, .i32⟩
  | .hbm, ⟨12, _⟩ => ⟨S262144, .i32⟩
  | .hbm, ⟨13, _⟩ => ⟨S262144, .i1⟩
  | .hbm, ⟨14, _⟩ => ⟨S_, .i32⟩
  | .hbm, ⟨15, _⟩ => ⟨S262144, .i32⟩
  | .hbm, ⟨16, _⟩ => ⟨S262144, .i32⟩
  | .hbm, ⟨17, _⟩ => ⟨S262144, .i32⟩
  | .hbm, ⟨18, _⟩ => ⟨S262144x1, .i32⟩
  | .hbm, ⟨19, _⟩ => ⟨S262144x128, .f32⟩
  | .hbm, ⟨20, _⟩ => ⟨S_, .i32⟩
  | .hbm, ⟨21, _⟩ => ⟨S262144, .i32⟩
  | .hbm, ⟨22, _⟩ => ⟨S262144, .i1⟩
  | .hbm, ⟨23, _⟩ => ⟨S_, .i32⟩
  | .hbm, ⟨24, _⟩ => ⟨S262144, .i32⟩
  | .hbm, ⟨25, _⟩ => ⟨S262144, .i32⟩
  | .hbm, ⟨26, _⟩ => ⟨S262144, .i32⟩
  | .hbm, ⟨27, _⟩ => ⟨S_, .i32⟩
  | .hbm, ⟨28, _⟩ => ⟨S262144, .i32⟩
  | .hbm, ⟨29, _⟩ => ⟨S262144, .i1⟩
  | .hbm, ⟨30, _⟩ => ⟨S_, .i32⟩
  | .hbm, ⟨31, _⟩ => ⟨S262144, .i32⟩
  | .hbm, ⟨32, _⟩ => ⟨S262144, .i32⟩
  | .hbm, ⟨33, _⟩ => ⟨S262144, .i32⟩
  | .hbm, ⟨34, _⟩ => ⟨S262144x1, .i32⟩
  | .hbm, ⟨35, _⟩ => ⟨S262144x1, .i32⟩
  | .hbm, ⟨36, _⟩ => ⟨S262144x2, .i32⟩
  | .hbm, ⟨37, _⟩ => ⟨S262144x16, .f32⟩
  | .hbm, ⟨38, _⟩ => ⟨S262144x144, .f32⟩
  | .hbm, ⟨39, _⟩ => ⟨S262144x128, .f32⟩
  | .hbm, ⟨40, _⟩ => ⟨S1x128, .f32⟩
  | .hbm, ⟨41, _⟩ => ⟨S262144x128, .f32⟩
  | .hbm, ⟨42, _⟩ => ⟨S262144x128, .f32⟩
  | .hbm, ⟨43, _⟩ => ⟨S_, .f32⟩
  | .hbm, ⟨44, _⟩ => ⟨S262144x128, .f32⟩
  | .hbm, ⟨45, _⟩ => ⟨S262144x128, .f32⟩
  | .hbm, ⟨46, _⟩ => ⟨S262144x128, .f32⟩
  | .hbm, ⟨47, _⟩ => ⟨S1x128, .f32⟩
  | .hbm, ⟨48, _⟩ => ⟨S262144x128, .f32⟩
  | .hbm, ⟨49, _⟩ => ⟨S262144x128, .f32⟩
  | .hbm, ⟨50, _⟩ => ⟨S_, .f32⟩
  | .hbm, ⟨51, _⟩ => ⟨S262144x128, .f32⟩
  | .hbm, ⟨52, _⟩ => ⟨S262144x128, .f32⟩
  | .hbm, ⟨53, _⟩ => ⟨S_, .f32⟩
  | .hbm, ⟨54, _⟩ => ⟨S4096x128, .f32⟩
  | .hbm, ⟨55, _⟩ => ⟨S262144x1, .i32⟩
  | .hbm, ⟨56, _⟩ => ⟨S4096x128, .f32⟩
  | _, _ => ⟨S4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_c_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c_1 : Ref sig .tc := ⟨.hbm, 20, rfl⟩
abbrev main_v11 : Ref sig .tc := ⟨.hbm, 21, rfl⟩
abbrev main_v12 : Ref sig .tc := ⟨.hbm, 22, rfl⟩
abbrev main_c_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_c_3 : Ref sig .tc := ⟨.hbm, 27, rfl⟩
abbrev main_v16 : Ref sig .tc := ⟨.hbm, 28, rfl⟩
abbrev main_v17 : Ref sig .tc := ⟨.hbm, 29, rfl⟩
abbrev main_c_4 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_call0_cst : Ref sig .tc := ⟨.hbm, 43, rfl⟩
abbrev main_call0_v0 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_call1_cst : Ref sig .tc := ⟨.hbm, 50, rfl⟩
abbrev main_call1_v0 : Ref sig .tc := ⟨.hbm, 51, rfl⟩
abbrev main_v35 : Ref sig .tc := ⟨.hbm, 52, rfl⟩
abbrev main_cst : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩

abbrev nD : Nat := 1
abbrev τ : Topo := Topo.v7x

variable {F : FTy → Type} [FloatOps F]

class Facts₀ : Prop where
  slices_S2x262144_S1x262144_0_0 : S2x262144.Slices ![0, 0] S1x262144
  shapeCasts_S1x262144_S262144 : S1x262144.ShapeCasts S262144
  slices_S2x262144_S1x262144_1_0 : S2x262144.Slices ![1, 0] S1x262144
  bcast_S_S262144 : S_.BroadcastsInDim S262144 (![] : Fin 0 → Fin S262144.rank)
  bcast_S262144_S262144x1_0 : S262144.BroadcastsInDim S262144x1 (![0] : Fin 1 → Fin S262144x1.rank)
  concatenates_S262144x1_S262144x1_S262144x2_d1 : Shape.Concatenates [S262144x1, S262144x1] S262144x2 1
  concatenates_S262144x128_S262144x16_S262144x144_d1 : Shape.Concatenates [S262144x128, S262144x16] S262144x144 1
  bcast_S128_S1x128_1 : S128.BroadcastsInDim S1x128 (![1] : Fin 1 → Fin S1x128.rank)
  bcast_S1x128_S262144x128_0_1 : S1x128.BroadcastsInDim S262144x128 (![0, 1] : Fin 2 → Fin S262144x128.rank)
  bcast_S_S262144x128 : S_.BroadcastsInDim S262144x128 (![] : Fin 0 → Fin S262144x128.rank)
  bcast_S_S4096x128 : S_.BroadcastsInDim S4096x128 (![] : Fin 0 → Fin S4096x128.rank)
  gather_S4096x128_S262144x1_S262144x128_1_0_n_n_0_1_1128_wf : GatherDims.WF S4096x128 S262144x1 S262144x128 [1] [0] [] [0] [] 1 ![1, 128]
  gather_S4096x4096x16_S262144x2_S262144x16_1_01_n_n_01_1_1116_wf : GatherDims.WF S4096x4096x16 S262144x2 S262144x16 [1] [0, 1] [] [0, 1] [] 1 ![1, 1, 16]
  dot_S262144x144_S144x128_S262144x128_1_0_0_1_n_n_wf : DotDims.WF S262144x144 S144x128 S262144x128 [1] [0] [0] [1] [] []
  dot_S262144x128_S128x128_S262144x128_1_0_0_1_n_n_wf : DotDims.WF S262144x128 S128x128 S262144x128 [1] [0] [0] [1] [] []
  scatter_S4096x128_S262144x1_S262144x128_1_0_0_1_wf : ScatterDims.WF S4096x128 S262144x1 S262144x128 [1] [0] [0] 1

variable [Facts₀]

def gather_S4096x128_S262144x1_S262144x128_1_0_n_n_0_1_1128 : GatherDims S4096x128 S262144x1 S262144x128 where
  offsetDims := [1]
  collapsedSliceDims := [0]
  operandBatchingDims := []
  startIndicesBatchingDims := []
  startIndexMap := [0]
  indexVectorDim := 1
  sliceSizes := ![1, 128]
  wf := gather_S4096x128_S262144x1_S262144x128_1_0_n_n_0_1_1128_wf
def gather_S4096x4096x16_S262144x2_S262144x16_1_01_n_n_01_1_1116 : GatherDims S4096x4096x16 S262144x2 S262144x16 where
  offsetDims := [1]
  collapsedSliceDims := [0, 1]
  operandBatchingDims := []
  startIndicesBatchingDims := []
  startIndexMap := [0, 1]
  indexVectorDim := 1
  sliceSizes := ![1, 1, 16]
  wf := gather_S4096x4096x16_S262144x2_S262144x16_1_01_n_n_01_1_1116_wf
def dot_S262144x144_S144x128_S262144x128_1_0_0_1_n_n : DotDims S262144x144 S144x128 S262144x128 where
  lhsContracting := [1]
  rhsContracting := [0]
  lhsNonContracting := [0]
  rhsNonContracting := [1]
  lhsBatch := []
  rhsBatch := []
  wf := dot_S262144x144_S144x128_S262144x128_1_0_0_1_n_n_wf
def dot_S262144x128_S128x128_S262144x128_1_0_0_1_n_n : DotDims S262144x128 S128x128 S262144x128 where
  lhsContracting := [1]
  rhsContracting := [0]
  lhsNonContracting := [0]
  rhsNonContracting := [1]
  lhsBatch := []
  rhsBatch := []
  wf := dot_S262144x128_S128x128_S262144x128_1_0_0_1_n_n_wf
def scatter_S4096x128_S262144x1_S262144x128_1_0_0_1 : ScatterDims S4096x128 S262144x1 S262144x128 where
  updateWindowDims := [1]
  insertedWindowDims := [0]
  scatterDimsToOperandDims := [0]
  indexVectorDim := 1
  wf := scatter_S4096x128_S262144x1_S262144x128_1_0_0_1_wf

class Facts : Prop extends Facts₀ where

variable [Facts]
-- ==== Proof.LibMatmul.lean ====
/-
  A rank-2 matrix product read at an index, at the exact extended reals: when the dimension numbers contract the
  left operand's column axis with the right operand's row axis and keep the other two axes in order, the product
  accumulated into zeros is, at row `p` and column `q`, the sum over `k` of `lhs (p, k) · rhs (k, q)` — a sum over
  the contracted extent itself, not over the contraction's own index type.
-/
import Idealize.ShloMosaic.PureOps.Ideal.Laws
import Idealize.ShloMosaic.Lib.ValueIdx

noncomputable section

namespace Cert.LibMatmul

open Idealize.ShloMosaic Idealize.ShloMosaic.ValueIdx

/-- A product `[a, K] × [K, b] → [a, b]` into a zero accumulator, at an output index `j`: the four coordinate facts
    say which operand entries the dimension numbers pair at the contraction index (the left one at `(j 0, k)`, the
    right one at `(k, j 1)`); the contraction has one axis, of extent `K`, and the sum is re-indexed along it. -/
theorem matmul_zero_ix2 {a K b : Nat} {φ₁ φ₂ : FTy}
    (d : DotDims ⟨2, ![a, K]⟩ ⟨2, ![K, b]⟩ ⟨2, ![a, b]⟩) (prec : Option ContractPrecision)
    (hr : d.contr.rank = 1) (hs : d.contr.size ⟨0, by omega⟩ = K)
    (hl0 : ∀ j q, (d.lhsIdx j q 0).val = (j 0).val)
    (hl1 : ∀ j q, (d.lhsIdx j q 1).val = (q ⟨0, by omega⟩).val)
    (hr0 : ∀ j q, (d.rhsIdx j q 0).val = (q ⟨0, by omega⟩).val)
    (hr1 : ∀ j q, (d.rhsIdx j q 1).val = (j 1).val)
    (lhs : FVec Ideal ⟨2, ![a, K]⟩ φ₁) (rhs : FVec Ideal ⟨2, ![K, b]⟩ φ₂) (j : (⟨2, ![a, b]⟩ : Shape).Idx) :
    FloatOps.matmul d prec lhs rhs (constant ⟨2, ![a, b]⟩ .f32 0x00000000#32) j
      = ∑ k : Fin K, lhs (ix2 (j 0) k) * rhs (ix2 k (j 1)) := by
  rw [Ideal.matmul_constant_zero_apply, ← Equiv.sum_comp (contrEquiv1 d K hr hs).symm]
  refine Finset.sum_congr rfl fun k _ => ?_
  have hk := contrEquiv1_symm_val d K hr hs k
  have el : d.lhsIdx j ((contrEquiv1 d K hr hs).symm k) = ix2 (j 0) k := funext fun x => Fin.ext (by
    match x with
    | ⟨0, _⟩ => exact hl0 _ _
    | ⟨1, _⟩ => exact (hl1 _ _).trans hk)
  have er : d.rhsIdx j ((contrEquiv1 d K hr hs).symm k) = ix2 k (j 1) := funext fun x => Fin.ext (by
    match x with
    | ⟨0, _⟩ => exact (hr0 _ _).trans hk
    | ⟨1, _⟩ => exact hr1 _ _)
  rw [el, er]
  rfl

end Cert.LibMatmul

end
-- ==== Proof.LibDotGeneral.lean ====
/-
  The host's rank-2 `dot_general` read at an index, at the exact extended reals: when the dimension numbers contract the
  left operand's column axis with the right operand's row axis and keep the other two axes in order, the product is, at
  row `p` and column `q`, the sum over `k` of `lhs (p, k) · rhs (k, q)`, whatever the schedule key — a sum over the
  contracted extent itself, not over the contraction's own index type.
-/
import Idealize.ShloMosaic.PureOps.Ideal.Laws
import Idealize.ShloMosaic.Lib.ValueIdx

noncomputable section

namespace Cert.LibDotGeneral

open Idealize.ShloMosaic Idealize.ShloMosaic.ValueIdx

/-- A product `[a, K] × [K, b] → [a, b]` on the host, at an output index `j`: the four coordinate facts say which operand
    entries the dimension numbers pair at the contraction index; the contraction has one axis, of extent `K`, and the sum
    is re-indexed along it. -/
theorem dotGeneral_ix2 {a K b : Nat} {φ₁ φ₂ : FTy}
    (d : DotDims ⟨2, ![a, K]⟩ ⟨2, ![K, b]⟩ ⟨2, ![a, b]⟩) (prec : Option ContractPrecision) (sched : HostSchedule)
    (hr : d.contr.rank = 1) (hs : d.contr.size ⟨0, by omega⟩ = K)
    (hl0 : ∀ j q, (d.lhsIdx j q 0).val = (j 0).val)
    (hl1 : ∀ j q, (d.lhsIdx j q 1).val = (q ⟨0, by omega⟩).val)
    (hr0 : ∀ j q, (d.rhsIdx j q 0).val = (q ⟨0, by omega⟩).val)
    (hr1 : ∀ j q, (d.rhsIdx j q 1).val = (j 1).val)
    (lhs : FVec Ideal ⟨2, ![a, K]⟩ φ₁) (rhs : FVec Ideal ⟨2, ![K, b]⟩ φ₂) (j : (⟨2, ![a, b]⟩ : Shape).Idx) :
    FloatOps.dotGeneral d prec sched lhs rhs j = ∑ k : Fin K, lhs (ix2 (j 0) k) * rhs (ix2 k (j 1)) := by
  rw [Ideal.dotGeneral_apply, ← Equiv.sum_comp (contrEquiv1 d K hr hs).symm]
  refine Finset.sum_congr rfl fun k _ => ?_
  have hk := contrEquiv1_symm_val d K hr hs k
  have el : d.lhsIdx j ((contrEquiv1 d K hr hs).symm k) = ix2 (j 0) k := funext fun x => Fin.ext (by
    match x with
    | ⟨0, _⟩ => exact hl0 _ _
    | ⟨1, _⟩ => exact (hl1 _ _).trans hk)
  have er : d.rhsIdx j ((contrEquiv1 d K hr hs).symm k) = ix2 k (j 1) := funext fun x => Fin.ext (by
    match x with
    | ⟨0, _⟩ => exact (hr0 _ _).trans hk
    | ⟨1, _⟩ => exact hr1 _ _)
  rw [el, er]
  rfl

end Cert.LibDotGeneral

end
-- ==== Proof.LibEdgeMlp.lean ====
/-
  A two-layer perceptron over the rows of TWO matrices laid side by side, on the extended reals, entry by entry, for
  any number of rows `n`, widths `K` and `D` of the two inputs, hidden width `H` and output width `o`:
    hidden (p, k) = max (Σ_l X (p, l) · Wa (l, k) + Σ_l E (p, l) · Wb (l, k) + b₁ k) 0
    out (p, q)    = max (Σ_k hidden (p, k) · W₂ (k, q) + b₂ q) 0,
  the zero being the value of the all-zero word. Two programs' spellings of it are read here as this one function:
  a vector unit's (three matrix products into zero accumulators, the first two added, the biases kept as one-row
  matrices and broadcast down the rows, the format changes the identity on extended reals) and a host's (the two
  inputs joined column-wise into one matrix `C` of width `K + D`, multiplied by the two weight blocks stacked into one
  matrix `W₁`; each bias laid out as a row and broadcast). The host's first product is a sum over `K + D` columns,
  which splits into the sum over the first `K` and the sum over the last `D`: only that sums over a disjoint union
  add up, so nothing has to be finite. An entry depends on one row of `X` and `E` only, so an entry of the
  perceptron of a band of rows is the entry of the whole perceptron it sits at (`out_entry_congr`).
-/
import Idealize.ShloMosaic.PureOps.Ideal.Laws
import Idealize.ShloMosaic.Lib.ValueIdx
import Idealize.ShloMosaic.Lib.ValueLayout
import Idealize.ShloMosaic.Lib.Pipeline.Value
import proofs.«100358_j22368189678239_1_alg».proof.Proof.LibMatmul
import proofs.«100358_j22368189678239_1_alg».proof.Proof.LibDotGeneral

noncomputable section

namespace Cert.EdgeMlp

open Idealize.ShloMosaic Idealize.ShloMosaic.ValueIdx

/-- The value of the all-zero f32 word. -/
abbrev zero : Ideal .f32 := Ideal.ofBits .f32 0x00000000#32

/-- The hidden layer: row `p` of `X` against column `k` of `Wa`, plus row `p` of `E` against column `k` of `Wb`, plus
    the bias, cut off below at zero. -/
def hidden {n K D H : Nat} (X : FVec Ideal ⟨2, ![n, K]⟩ .f32) (E : FVec Ideal ⟨2, ![n, D]⟩ .f32)
    (Wa : FVec Ideal ⟨2, ![K, H]⟩ .f32) (Wb : FVec Ideal ⟨2, ![D, H]⟩ .f32) (b1 : FVec Ideal ⟨1, ![H]⟩ .f32) :
    FVec Ideal ⟨2, ![n, H]⟩ .f32 :=
  fun j => max (((∑ l : Fin K, X (ix2 (j 0) l) * Wa (ix2 l (j 1))) + ∑ l : Fin D, E (ix2 (j 0) l) * Wb (ix2 l (j 1)))
    + b1 (ix1 (j 1))) zero

/-- The output layer over the hidden one, cut off below at zero as well. -/
def out {n K D H o : Nat} (X : FVec Ideal ⟨2, ![n, K]⟩ .f32) (E : FVec Ideal ⟨2, ![n, D]⟩ .f32)
    (Wa : FVec Ideal ⟨2, ![K, H]⟩ .f32) (Wb : FVec Ideal ⟨2, ![D, H]⟩ .f32) (b1 : FVec Ideal ⟨1, ![H]⟩ .f32)
    (W2 : FVec Ideal ⟨2, ![H, o]⟩ .f32) (b2 : FVec Ideal ⟨1, ![o]⟩ .f32) : FVec Ideal ⟨2, ![n, o]⟩ .f32 :=
  fun j => max ((∑ k : Fin H, hidden X E Wa Wb b1 (ix2 (j 0) k) * W2 (ix2 k (j 1))) + b2 (ix1 (j 1))) zero

/-- An entry of the perceptron of a band of rows equals the entry of the whole perceptron it sits at: if row `y 0` of
    `X'` and of `E'` is row `i 0` of `X` and of `E`, the hidden layer's weights and bias are shared, and column `y 1`
    of the output weights and bias is column `i 1`, the two entries are built from equal terms. -/
theorem out_entry_congr {h n K D H o o' : Nat}
    (X' : FVec Ideal ⟨2, ![h, K]⟩ .f32) (E' : FVec Ideal ⟨2, ![h, D]⟩ .f32)
    (Wa' : FVec Ideal ⟨2, ![K, H]⟩ .f32) (Wb' : FVec Ideal ⟨2, ![D, H]⟩ .f32) (b1' : FVec Ideal ⟨1, ![H]⟩ .f32)
    (W2' : FVec Ideal ⟨2, ![H, o]⟩ .f32) (b2' : FVec Ideal ⟨1, ![o]⟩ .f32)
    (X : FVec Ideal ⟨2, ![n, K]⟩ .f32) (E : FVec Ideal ⟨2, ![n, D]⟩ .f32)
    (Wa : FVec Ideal ⟨2, ![K, H]⟩ .f32) (Wb : FVec Ideal ⟨2, ![D, H]⟩ .f32) (b1 : FVec Ideal ⟨1, ![H]⟩ .f32)
    (W2 : FVec Ideal ⟨2, ![H, o']⟩ .f32) (b2 : FVec Ideal ⟨1, ![o']⟩ .f32)
    (y : (⟨2, ![h, o]⟩ : Shape).Idx) (i : (⟨2, ![n, o']⟩ : Shape).Idx)
    (hX : ∀ l : Fin K, X' (ix2 (y 0) l) = X (ix2 (i 0) l)) (hE : ∀ l : Fin D, E' (ix2 (y 0) l) = E (ix2 (i 0) l))
    (hWa : Wa' = Wa) (hWb : Wb' = Wb) (hb1 : b1' = b1)
    (hW2 : ∀ k : Fin H, W2' (ix2 k (y 1)) = W2 (ix2 k (i 1))) (hb2 : b2' (ix1 (y 1)) = b2 (ix1 (i 1))) :
    out X' E' Wa' Wb' b1' W2' b2' y = out X E Wa Wb b1 W2 b2 i := by
  subst hWa hWb hb1
  unfold out hidden
  refine congrArg (fun s => max s zero)
    (congrArg₂ (· + ·) (Finset.sum_congr rfl fun k _ => congrArg₂ (· * ·) ?_ (hW2 k)) hb2)
  exact congrArg (fun s => max (s + b1' (ix1 k)) zero)
    (congrArg₂ (· + ·) (Finset.sum_congr rfl fun l _ => congrArg₂ (· * ·) (hX l) rfl)
      (Finset.sum_congr rfl fun l _ => congrArg₂ (· * ·) (hE l) rfl))

/-- The row of a one-row matrix as a vector. -/
def rowOf {b : Nat} (v : FVec Ideal ⟨2, ![1, b]⟩ .f32) : FVec Ideal ⟨1, ![b]⟩ .f32 := fun i => v (ix2 (0 : Fin 1) (i 0))

/-- Dimension numbers of a plain product `[a, K] × [K, b] → [a, b]`: one contracted axis of extent `K`, the left
    operand's columns against the right operand's rows, the other two axes kept in order. -/
structure PlainDot {a K b : Nat} (d : DotDims ⟨2, ![a, K]⟩ ⟨2, ![K, b]⟩ ⟨2, ![a, b]⟩) : Prop where
  hr : d.contr.rank = 1
  hs : d.contr.size ⟨0, by omega⟩ = K
  hl0 : ∀ j q, (d.lhsIdx j q 0).val = (j 0).val
  hl1 : ∀ j q, (d.lhsIdx j q 1).val = (q ⟨0, by omega⟩).val
  hr0 : ∀ j q, (d.rhsIdx j q 0).val = (q ⟨0, by omega⟩).val
  hr1 : ∀ j q, (d.rhsIdx j q 1).val = (j 1).val

/-- The vector unit's spelling is the perceptron. -/
theorem kernel_form {n K D H o : Nat}
    (dx : DotDims ⟨2, ![n, K]⟩ ⟨2, ![K, H]⟩ ⟨2, ![n, H]⟩) (px : PlainDot dx)
    (de : DotDims ⟨2, ![n, D]⟩ ⟨2, ![D, H]⟩ ⟨2, ![n, H]⟩) (pe : PlainDot de)
    (d2 : DotDims ⟨2, ![n, H]⟩ ⟨2, ![H, o]⟩ ⟨2, ![n, o]⟩) (p2 : PlainDot d2)
    (hcx : (⟨2, ![n, K]⟩ : Shape).ShapeCasts ⟨2, ![n, K]⟩) (hce : (⟨2, ![n, D]⟩ : Shape).ShapeCasts ⟨2, ![n, D]⟩)
    (hca : (⟨2, ![K, H]⟩ : Shape).ShapeCasts ⟨2, ![K, H]⟩) (hcb : (⟨2, ![D, H]⟩ : Shape).ShapeCasts ⟨2, ![D, H]⟩)
    (hc1 : (⟨2, ![1, H]⟩ : Shape).ShapeCasts ⟨2, ![1, H]⟩) (hb1 : (⟨2, ![1, H]⟩ : Shape).Broadcasts ⟨2, ![n, H]⟩)
    (hc2 : (⟨2, ![1, o]⟩ : Shape).ShapeCasts ⟨2, ![1, o]⟩) (hb2 : (⟨2, ![1, o]⟩ : Shape).Broadcasts ⟨2, ![n, o]⟩)
    (hlt : FTy.bits .bf16 < FTy.bits .f32)
    (x0 : FVec Ideal ⟨2, ![n, K]⟩ .f32) (x1 : FVec Ideal ⟨2, ![n, D]⟩ .f32) (x2 : FVec Ideal ⟨2, ![K, H]⟩ .f32)
    (x3 : FVec Ideal ⟨2, ![D, H]⟩ .f32) (x4 : FVec Ideal ⟨2, ![1, H]⟩ .f32) (x5 : FVec Ideal ⟨2, ![H, o]⟩ .f32)
    (x6 : FVec Ideal ⟨2, ![1, o]⟩ .f32) :
    maximumf (addf (matmul d2 none
        (truncf .bf16 (maximumf (addf (addf
            (matmul dx none (truncf .bf16 (shapeCast ⟨2, ![n, K]⟩ x0 hcx) hlt) (truncf .bf16 (shapeCast ⟨2, ![K, H]⟩ x2 hca) hlt)
              (constant ⟨2, ![n, H]⟩ .f32 0x00000000#32))
            (matmul de none (truncf .bf16 (shapeCast ⟨2, ![n, D]⟩ x1 hce) hlt) (truncf .bf16 (shapeCast ⟨2, ![D, H]⟩ x3 hcb) hlt)
              (constant ⟨2, ![n, H]⟩ .f32 0x00000000#32)))
          (broadcastTo ⟨2, ![n, H]⟩ (shapeCast ⟨2, ![1, H]⟩ x4 hc1) hb1))
          (broadcast ⟨2, ![n, H]⟩ (Scalar.ofBits (F := Ideal) .f32 0x00000000#32))) hlt)
        (truncf .bf16 x5 hlt) (constant ⟨2, ![n, o]⟩ .f32 0x00000000#32))
      (broadcastTo ⟨2, ![n, o]⟩ (shapeCast ⟨2, ![1, o]⟩ x6 hc2) hb2))
      (broadcast ⟨2, ![n, o]⟩ (Scalar.ofBits (F := Ideal) .f32 0x00000000#32))
    = out x0 x1 x2 x3 (rowOf x4) x5 (rowOf x6) := by
  funext j
  obtain ⟨p, q, rfl⟩ : ∃ (p : Fin n) (q : Fin o), j = ix2 p q := ⟨j 0, j 1, eq_ix2 j⟩
  simp only [shapeCast_self]
  show max (FloatOps.matmul d2 none _ _ (constant ⟨2, ![n, o]⟩ .f32 0x00000000#32) (ix2 p q)
    + broadcastTo ⟨2, ![n, o]⟩ x6 hb2 (ix2 p q)) zero = _
  rw [Cert.LibMatmul.matmul_zero_ix2 d2 none p2.hr p2.hs p2.hl0 p2.hl1 p2.hr0 p2.hr1, broadcastTo_1b_ab_apply]
  unfold out
  refine congrArg (fun s => max s zero) (congrArg₂ (· + ·) (Finset.sum_congr rfl fun k _ => congrArg₂ (· * ·) ?_ rfl) rfl)
  show max ((FloatOps.matmul dx none _ _ (constant ⟨2, ![n, H]⟩ .f32 0x00000000#32) (ix2 p k)
      + FloatOps.matmul de none _ _ (constant ⟨2, ![n, H]⟩ .f32 0x00000000#32) (ix2 p k))
    + broadcastTo ⟨2, ![n, H]⟩ x4 hb1 (ix2 p k)) zero = hidden x0 x1 x2 x3 (rowOf x4) (ix2 p k)
  rw [Cert.LibMatmul.matmul_zero_ix2 dx none px.hr px.hs px.hl0 px.hl1 px.hr0 px.hr1,
    Cert.LibMatmul.matmul_zero_ix2 de none pe.hr pe.hs pe.hl0 pe.hl1 pe.hr0 pe.hr1, broadcastTo_1b_ab_apply]
  rfl

/-- A sum over `K + D` consecutive indices is the sum over the first `K` plus the sum over the last `D`. -/
theorem sum_split {K D KD : Nat} (hKD : K + D = KD) (f : Fin KD → EReal) :
    ∑ k : Fin KD, f k = (∑ l : Fin K, f ⟨l.val, by have := l.isLt; omega⟩)
      + ∑ l : Fin D, f ⟨K + l.val, by have := l.isLt; omega⟩ := by
  subst hKD
  exact Fin.sum_univ_add f

/-- A vector laid out as one row and broadcast down `n` rows reads, at `(p, k)`, the vector at `k`. -/
theorem bias_apply {n H : Nat}
    (hr : (⟨1, ![H]⟩ : Shape).BroadcastsInDim ⟨2, ![1, H]⟩ (![1] : Fin 1 → Fin 2))
    (hd : (⟨2, ![1, H]⟩ : Shape).BroadcastsInDim ⟨2, ![n, H]⟩ (![0, 1] : Fin 2 → Fin 2))
    (b : FVec Ideal ⟨1, ![H]⟩ .f32) (p : Fin n) (k : Fin H) :
    broadcastInDim ⟨2, ![n, H]⟩ ![0, 1] hd (broadcastInDim ⟨2, ![1, H]⟩ ![1] hr b) (ix2 p k) = b (ix1 k) := by
  rw [broadcastInDim_apply _ hd _ (ix2 p k) (ix2 (0 : Fin 1) k) (fun a => by
        match a with
        | ⟨0, _⟩ => show 0 = if (1 : Nat) = 1 then 0 else p.val; rw [if_pos rfl]
        | ⟨1, _⟩ =>
          show k.val = if H = 1 then 0 else k.val
          split
          · have := k.isLt; omega
          · rfl),
    broadcastInDim_apply _ hr b (ix2 (0 : Fin 1) k) (ix1 k) (fun a => by
        match a with
        | ⟨0, _⟩ =>
          show k.val = if H = 1 then 0 else k.val
          split
          · have := k.isLt; omega
          · rfl)]

/-- The host's spelling is the perceptron: `C` holds `X` in its first `K` columns and `E` in its last `D`, `W₁` holds
    `Wa` in its first `K` rows and `Wb` in its last `D`. -/
theorem host_form {n K D KD H o : Nat} (hKD : K + D = KD)
    (d1 : DotDims ⟨2, ![n, KD]⟩ ⟨2, ![KD, H]⟩ ⟨2, ![n, H]⟩) (p1 : PlainDot d1)
    (d2 : DotDims ⟨2, ![n, H]⟩ ⟨2, ![H, o]⟩ ⟨2, ![n, o]⟩) (p2 : PlainDot d2)
    (hr1 : (⟨1, ![H]⟩ : Shape).BroadcastsInDim ⟨2, ![1, H]⟩ (![1] : Fin 1 → Fin 2))
    (hd1 : (⟨2, ![1, H]⟩ : Shape).BroadcastsInDim ⟨2, ![n, H]⟩ (![0, 1] : Fin 2 → Fin 2))
    (hz1 : (⟨0, ![]⟩ : Shape).BroadcastsInDim ⟨2, ![n, H]⟩ (![] : Fin 0 → Fin 2))
    (hr2 : (⟨1, ![o]⟩ : Shape).BroadcastsInDim ⟨2, ![1, o]⟩ (![1] : Fin 1 → Fin 2))
    (hd2 : (⟨2, ![1, o]⟩ : Shape).BroadcastsInDim ⟨2, ![n, o]⟩ (![0, 1] : Fin 2 → Fin 2))
    (hz2 : (⟨0, ![]⟩ : Shape).BroadcastsInDim ⟨2, ![n, o]⟩ (![] : Fin 0 → Fin 2))
    (C : FVec Ideal ⟨2, ![n, KD]⟩ .f32) (W1 : FVec Ideal ⟨2, ![KD, H]⟩ .f32)
    (X : FVec Ideal ⟨2, ![n, K]⟩ .f32) (E : FVec Ideal ⟨2, ![n, D]⟩ .f32)
    (Wa : FVec Ideal ⟨2, ![K, H]⟩ .f32) (Wb : FVec Ideal ⟨2, ![D, H]⟩ .f32) (b1 : FVec Ideal ⟨1, ![H]⟩ .f32)
    (W2 : FVec Ideal ⟨2, ![H, o]⟩ .f32) (b2 : FVec Ideal ⟨1, ![o]⟩ .f32)
    (hCX : ∀ (p : Fin n) (l : Fin K), C (ix2 p (⟨l.val, by have := l.isLt; omega⟩ : Fin KD)) = X (ix2 p l))
    (hCE : ∀ (p : Fin n) (l : Fin D), C (ix2 p (⟨K + l.val, by have := l.isLt; omega⟩ : Fin KD)) = E (ix2 p l))
    (hWa : ∀ (l : Fin K) (k : Fin H), W1 (ix2 (⟨l.val, by have := l.isLt; omega⟩ : Fin KD) k) = Wa (ix2 l k))
    (hWb : ∀ (l : Fin D) (k : Fin H), W1 (ix2 (⟨K + l.val, by have := l.isLt; omega⟩ : Fin KD) k) = Wb (ix2 l k)) :
    maximumf (addf (Host.dotGeneral d2 none
        (maximumf (addf (Host.dotGeneral d1 none C W1)
            (broadcastInDim ⟨2, ![n, H]⟩ ![0, 1] hd1 (broadcastInDim ⟨2, ![1, H]⟩ ![1] hr1 b1)))
          (broadcastInDim ⟨2, ![n, H]⟩ ![] hz1 (constant (F := Ideal) ⟨0, ![]⟩ .f32 0x00000000#32))) W2)
      (broadcastInDim ⟨2, ![n, o]⟩ ![0, 1] hd2 (broadcastInDim ⟨2, ![1, o]⟩ ![1] hr2 b2)))
      (broadcastInDim ⟨2, ![n, o]⟩ ![] hz2 (constant (F := Ideal) ⟨0, ![]⟩ .f32 0x00000000#32))
    = out X E Wa Wb b1 W2 b2 := by
  funext j
  obtain ⟨p, q, rfl⟩ : ∃ (p : Fin n) (q : Fin o), j = ix2 p q := ⟨j 0, j 1, eq_ix2 j⟩
  show max (FloatOps.dotGeneral d2 none .single _ W2 (ix2 p q)
    + broadcastInDim ⟨2, ![n, o]⟩ ![0, 1] hd2 (broadcastInDim ⟨2, ![1, o]⟩ ![1] hr2 b2) (ix2 p q)) zero = _
  rw [Cert.LibDotGeneral.dotGeneral_ix2 d2 none .single p2.hr p2.hs p2.hl0 p2.hl1 p2.hr0 p2.hr1, bias_apply]
  unfold out
  refine congrArg (fun s => max s zero) (congrArg₂ (· + ·) (Finset.sum_congr rfl fun k _ => congrArg₂ (· * ·) ?_ rfl) rfl)
  show max (FloatOps.dotGeneral d1 none .single C W1 (ix2 p k)
      + broadcastInDim ⟨2, ![n, H]⟩ ![0, 1] hd1 (broadcastInDim ⟨2, ![1, H]⟩ ![1] hr1 b1) (ix2 p k)) zero
    = hidden X E Wa Wb b1 (ix2 p k)
  rw [Cert.LibDotGeneral.dotGeneral_ix2 d1 none .single p1.hr p1.hs p1.hl0 p1.hl1 p1.hr0 p1.hr1, bias_apply,
    sum_split hKD]
  unfold hidden
  refine congrArg (fun s => max (s + b1 (ix1 k)) zero) (congrArg₂ (· + ·)
    (Finset.sum_congr rfl fun l _ => congrArg₂ (· * ·) (hCX p l) (hWa l k))
    (Finset.sum_congr rfl fun l _ => congrArg₂ (· * ·) (hCE p l) (hWb l k)))

end Cert.EdgeMlp

end
-- ==== Proof.Spec.lean ====
/-
  What both programs compute, as one function of the seven argument arrays.

  The edge list `x1` holds, for each of the 262144 edges, a source node (its first row) and a destination node (its
  second row). An edge's message is a two-layer perceptron of the source node's feature row of `x0` laid beside the
  edge's own feature row `x2[source, destination]`; the result sums, for every node, the messages of the edges that
  end at it. Negative node numbers count from the end (4096 is added) where they select rows; the final sum reads the
  destination as it is. The perceptron's first weight matrix `x3` is used as its first 128 rows (for the node features)
  and its last 16 rows (for the edge features).
-/
import proofs.«100358_j22368189678239_1_alg».proof.KernelIdeal
import proofs.«100358_j22368189678239_1_alg».proof.Proof.Gen.KernelIdeal
import proofs.«100358_j22368189678239_1_alg».proof.Proof.LibEdgeMlp

noncomputable section

namespace Cert.Spec

open Idealize.ShloMosaic Cert.KernelIdeal Cert.KernelIdeal.Gen

/-- Arrays of 32-bit integer words and of extended reals over a shape. -/
abbrev I32 (S : Shape) : Type := (⟨S, .i32⟩ : BufTy).Contents (Elt Ideal)
abbrev F32 (S : Shape) : Type := (⟨S, .f32⟩ : BufTy).Contents (Elt Ideal)

/-- The edges' source nodes: the edge list's first row. -/
def src (x1 : I32 S2x262144) : I32 S262144 :=
  shapeCast _ (extractStridedSlice S1x262144 ![0, 0] x1 slices_S2x262144_S1x262144_0_0) shapeCasts_S1x262144_S262144

/-- The edges' destination nodes: its second row. -/
def dst (x1 : I32 S2x262144) : I32 S262144 :=
  shapeCast _ (extractStridedSlice S1x262144 ![1, 0] x1 slices_S2x262144_S1x262144_1_0) shapeCasts_S1x262144_S262144

/-- A node number counted from the end when negative: 4096 is added to it. -/
def wrap (v : I32 S262144) : I32 S262144 :=
  select (cmpi .slt v (broadcastInDim S262144 ![] bcast_S_S262144 (constantI S_ 32 0#32)))
    (addi v (broadcastInDim S262144 ![] bcast_S_S262144 (constantI S_ 32 4096#32))) v

/-- A vector of node numbers laid out as a column of start indices. -/
def column (v : I32 S262144) : I32 S262144x1 := broadcastInDim S262144x1 ![0] bcast_S262144_S262144x1_0 v

/-- Each edge's source node's feature row. -/
def nodeRows (x0 : F32 S4096x128) (x1 : I32 S2x262144) : F32 S262144x128 :=
  Host.gather gather_S4096x128_S262144x1_S262144x128_1_0_n_n_0_1_1128 x0 (column (wrap (src x1)))

/-- Each edge's own feature row, read at (source, destination). -/
def edgeRows (x1 : I32 S2x262144) (x2 : F32 S4096x4096x16) : F32 S262144x16 :=
  Host.gather gather_S4096x4096x16_S262144x2_S262144x16_1_01_n_n_01_1_1116 x2
    (concatenate S262144x2 1 [⟨S262144x1, column (wrap (src x1))⟩, ⟨S262144x1, column (wrap (dst x1))⟩]
      concatenates_S262144x1_S262144x1_S262144x2_d1)

/-- The first layer's weights for the node features: rows 0 … 127. -/
def nodeWeights (x3 : F32 S144x128) : F32 S128x128 := extractStridedSlice S128x128 ![0, 0] x3 slices_S144x128_S128x128_0_0

/-- The first layer's weights for the edge features: rows 128 … 143. -/
def edgeWeights (x3 : F32 S144x128) : F32 S16x128 := extractStridedSlice S16x128 ![128, 0] x3 slices_S144x128_S16x128_128_0

/-- Every edge's message: the perceptron of its two feature rows. -/
def messagesOf (X : F32 S262144x128) (E : F32 S262144x16) (Wa : F32 S128x128) (Wb : F32 S16x128) (b1 : F32 S128)
    (W2 : F32 S128x128) (b2 : F32 S128) : F32 S262144x128 :=
  Cert.EdgeMlp.out (n := 262144) (K := 128) (D := 16) (H := 128) (o := 128) X E Wa Wb b1 W2 b2

def messages (x0 : F32 S4096x128) (x1 : I32 S2x262144) (x2 : F32 S4096x4096x16) (x3 : F32 S144x128) (x4 : F32 S128)
    (x5 : F32 S128x128) (x6 : F32 S128) : F32 S262144x128 :=
  messagesOf (nodeRows x0 x1) (edgeRows x1 x2) (nodeWeights x3) (edgeWeights x3) x4 x5 x6

/-- The messages summed per destination node, from zeros. -/
def pooledOf (d : I32 S262144) (M : F32 S262144x128) : F32 S4096x128 :=
  Host.scatterAdd (F := Ideal) scatter_S4096x128_S262144x1_S262144x128_1_0_0_1
    (broadcastInDim S4096x128 ![] bcast_S_S4096x128 (constant (F := Ideal) S_ .f32 0x00000000#32)) (column d) M

/-- The result. -/
def result (x0 : F32 S4096x128) (x1 : I32 S2x262144) (x2 : F32 S4096x4096x16) (x3 : F32 S144x128) (x4 : F32 S128)
    (x5 : F32 S128x128) (x6 : F32 S128) : F32 S4096x128 :=
  pooledOf (dst x1) (messages x0 x1 x2 x3 x4 x5 x6)

end Cert.Spec

end
-- ==== Proof.KernelBlock.lean ====
/-
  What the kernel leaves in its output array, read off the generated frame run.

  At grid point `t` the body sees rows 4096·t … 4096·t + 4095 of the two gathered feature matrices and the whole of the
  weights and biases, and stores the perceptron of those rows: block `t` of the perceptron of the whole matrices, since
  a message depends on its own edge's rows only. The 64 blocks tile the 262144 rows, so the array ends holding the
  perceptron of the whole matrices as the region finds them.
-/
import proofs.«100358_j22368189678239_1_alg».proof.Proof.Gen.KernelIdeal.Frame
import proofs.«100358_j22368189678239_1_alg».proof.Proof.Spec
import Idealize.ShloMosaic.Lib.Pipeline.Value
import Idealize.ShloMosaic.Lib.ValueIdx
import Idealize.ShloMosaic.Lib.ValueLayout

noncomputable section

open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen Cert.EdgeMlp Cert.Spec

theorem hz : (![0, 0] : Fin 2 → Nat) = fun _ => 0 := funext fun a => by fin_cases a <;> rfl

/-- The two dimension records of the body's products are plain: columns of the left against rows of the right. -/
theorem plain_128 : PlainDot dot_S4096x128_S128x128_S4096x128_1_0_0_1_n_n where
  hr := rfl
  hs := rfl
  hl0 := fun j q => by
    unfold DotDims.lhsIdx
    rw [dif_neg (show ¬(0 : Fin S4096x128.rank) ∈ dot_S4096x128_S128x128_S4096x128_1_0_0_1_n_n.lhsBatch by decide),
      dif_pos (show (0 : Fin S4096x128.rank) ∈ dot_S4096x128_S128x128_S4096x128_1_0_0_1_n_n.lhsNonContracting by decide)]
    rfl
  hl1 := fun j q => dot_S4096x128_S128x128_S4096x128_1_0_0_1_n_n.lhsIdx_val_of_single rfl j q
  hr0 := fun j q => dot_S4096x128_S128x128_S4096x128_1_0_0_1_n_n.rhsIdx_val_of_single rfl j q
  hr1 := fun j q => by
    unfold DotDims.rhsIdx
    rw [dif_neg (show ¬(1 : Fin S128x128.rank) ∈ dot_S4096x128_S128x128_S4096x128_1_0_0_1_n_n.rhsBatch by decide),
      dif_pos (show (1 : Fin S128x128.rank) ∈ dot_S4096x128_S128x128_S4096x128_1_0_0_1_n_n.rhsNonContracting by decide)]
    rfl

theorem plain_16 : PlainDot dot_S4096x16_S16x128_S4096x128_1_0_0_1_n_n where
  hr := rfl
  hs := rfl
  hl0 := fun j q => by
    unfold DotDims.lhsIdx
    rw [dif_neg (show ¬(0 : Fin S4096x16.rank) ∈ dot_S4096x16_S16x128_S4096x128_1_0_0_1_n_n.lhsBatch by decide),
      dif_pos (show (0 : Fin S4096x16.rank) ∈ dot_S4096x16_S16x128_S4096x128_1_0_0_1_n_n.lhsNonContracting by decide)]
    rfl
  hl1 := fun j q => dot_S4096x16_S16x128_S4096x128_1_0_0_1_n_n.lhsIdx_val_of_single rfl j q
  hr0 := fun j q => dot_S4096x16_S16x128_S4096x128_1_0_0_1_n_n.rhsIdx_val_of_single rfl j q
  hr1 := fun j q => by
    unfold DotDims.rhsIdx
    rw [dif_neg (show ¬(1 : Fin S16x128.rank) ∈ dot_S4096x16_S16x128_S4096x128_1_0_0_1_n_n.rhsBatch by decide),
      dif_pos (show (1 : Fin S16x128.rank) ∈ dot_S4096x16_S16x128_S4096x128_1_0_0_1_n_n.rhsNonContracting by decide)]
    rfl

/-- The body's stored value is the perceptron of the blocks it loaded. -/
theorem pay_eq (x0 : FVec Ideal S4096x128 .f32) (x1 : FVec Ideal S4096x16 .f32) (x2 : FVec Ideal S128x128 .f32)
    (x3 : FVec Ideal S16x128 .f32) (x4 : FVec Ideal S1x128 .f32) (x5 : FVec Ideal S128x128 .f32) (x6 : FVec Ideal S1x128 .f32) :
    k0_pay1 (F := Ideal) x0 x1 x2 x3 x4 x5 x6 = out x0 x1 x2 x3 (rowOf x4) x5 (rowOf x6) := by
  unfold k0_pay1
  exact kernel_form _ plain_128 _ plain_16 _ plain_128 _ _ _ _ _ _ _ _ _ x0 x1 x2 x3 x4 x5 x6

/-- What the output's staging buffer holds after the body: the same. -/
theorem out0_7_eq (x0 : FVec Ideal S4096x128 .f32) (x1 : FVec Ideal S4096x16 .f32) (x2 : FVec Ideal S128x128 .f32)
    (x3 : FVec Ideal S16x128 .f32) (x4 : FVec Ideal S1x128 .f32) (x5 : FVec Ideal S128x128 .f32) (x6 : FVec Ideal S1x128 .f32) :
    out0_7 (F := Ideal) x0 x1 x2 x3 x4 x5 x6 = out x0 x1 x2 x3 (rowOf x4) x5 (rowOf x6) := by
  unfold out0_7
  rw [View.canon_unit_zero hz]
  simp only [View.ld_unit_zero (S := S4096x128) hz, View.ld_unit_zero (S := S4096x16) hz, View.ld_unit_zero (S := S128x128) hz,
    View.ld_unit_zero (S := S16x128) hz, View.ld_unit_zero (S := S1x128) hz]
  exact pay_eq x0 x1 x2 x3 x4 x5 x6

/-- The printed index maps over the grid: the row-tiled windows (the two feature matrices, the output) sit at block
    row `t`, column 0; every other window at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0 :=
  (by decide +kernel : ∀ t : Fin grid0.N, _)

/-- The perceptron of the seven arrays that a family `W` of buffer contents holds at the windows' arrays. -/
abbrev whole (c : Dev nD) (W : (b : Ref sig .tc) → Buf (Elt Ideal) ((c : Thread nD τ).loc b)) : F32 S262144x128 :=
  messagesOf (W main_v10 : F32 S262144x128) (W main_v24 : F32 S262144x16) (W main_v25 : F32 S128x128) (W main_v26 : F32 S16x128)
    (rowOf (W main_v27 : F32 S1x128)) (W main_arg5 : F32 S128x128) (rowOf (W main_v28 : F32 S1x128))

/-- WHAT POINT `t` WRITES BACK is block `t` of the perceptron of the whole arrays: the two feature blocks are rows
    4096·t … of the feature matrices, the other five blocks are their whole arrays, and an entry of the perceptron
    reads one row of the features. -/
theorem block_eq (c : Dev nD) (W : (b : Ref sig .tc) → Buf (Elt Ideal) ((c : Thread nD τ).loc b)) (t : Fin cfg0.N) :
    (cfg0.win 7).cut (grid0.coords t)
      (out0_7 (F := Ideal) (((cfg0.win 0).blk t).view.read (Elt Ideal) (W (Pipeline.arrRef spec0 0)))
        (((cfg0.win 1).blk t).view.read (Elt Ideal) (W (Pipeline.arrRef spec0 1)))
        (((cfg0.win 2).blk t).view.read (Elt Ideal) (W (Pipeline.arrRef spec0 2)))
        (((cfg0.win 3).blk t).view.read (Elt Ideal) (W (Pipeline.arrRef spec0 3)))
        (((cfg0.win 4).blk t).view.read (Elt Ideal) (W (Pipeline.arrRef spec0 4)))
        (((cfg0.win 5).blk t).view.read (Elt Ideal) (W (Pipeline.arrRef spec0 5)))
        (((cfg0.win 6).blk t).view.read (Elt Ideal) (W (Pipeline.arrRef spec0 6))))
    = ((cfg0.win 7).blk t).view.read (Elt Ideal) (whole c W) := by
  obtain ⟨e00, e01, e10, e11, e20, e21, e30, e31, e40, e41, e50, e51, e60, e61, e70, e71⟩ := idx_facts t
  rw [out0_7_eq]
  funext y
  rw [View.read_apply]
  have hy0 : (y 0).val < 4096 := (y 0).isLt
  have hy1 : (y 1).val < 128 := (y 1).isLt
  refine out_entry_congr _ _ _ _ _ _ _ _ _ _ _ _ _ _ _ _ (fun l => ?_) (fun l => ?_) ?_ ?_ ?_ (fun k => ?_) ?_
  · rw [View.read_apply]
    refine congrArg (W main_v10 : S262144x128.Idx → Ideal .f32) (funext fun a => Fin.ext ?_)
    match a with
    | ⟨0, _⟩ => show win0_0.index t (0 : Fin 2) * 4096 + 1 * (y 0).val = win0_7.index t (0 : Fin 2) * 4096 + 1 * (y 0).val; omega
    | ⟨1, _⟩ => show win0_0.index t (1 : Fin 2) * 128 + 1 * l.val = l.val; omega
  · rw [View.read_apply]
    refine congrArg (W main_v24 : S262144x16.Idx → Ideal .f32) (funext fun a => Fin.ext ?_)
    match a with
    | ⟨0, _⟩ => show win0_1.index t (0 : Fin 2) * 4096 + 1 * (y 0).val = win0_7.index t (0 : Fin 2) * 4096 + 1 * (y 0).val; omega
    | ⟨1, _⟩ => show win0_1.index t (1 : Fin 2) * 16 + 1 * l.val = l.val; omega
  · funext z
    rw [View.read_apply]
    refine congrArg (W main_v25 : S128x128.Idx → Ideal .f32) (funext fun a => Fin.ext ?_)
    match a with
    | ⟨0, _⟩ => show win0_2.index t (0 : Fin 2) * 128 + 1 * (z 0).val = (z 0).val; omega
    | ⟨1, _⟩ => show win0_2.index t (1 : Fin 2) * 128 + 1 * (z 1).val = (z 1).val; omega
  · funext z
    rw [View.read_apply]
    refine congrArg (W main_v26 : S16x128.Idx → Ideal .f32) (funext fun a => Fin.ext ?_)
    match a with
    | ⟨0, _⟩ => show win0_3.index t (0 : Fin 2) * 16 + 1 * (z 0).val = (z 0).val; omega
    | ⟨1, _⟩ => show win0_3.index t (1 : Fin 2) * 128 + 1 * (z 1).val = (z 1).val; omega
  · refine congrArg rowOf (funext fun z => ?_)
    rw [View.read_apply]
    refine congrArg (W main_v27 : S1x128.Idx → Ideal .f32) (funext fun a => Fin.ext ?_)
    match a with
    | ⟨0, _⟩ => show win0_4.index t (0 : Fin 2) * 1 + 1 * (z 0).val = (z 0).val; omega
    | ⟨1, _⟩ => show win0_4.index t (1 : Fin 2) * 128 + 1 * (z 1).val = (z 1).val; omega
  · rw [View.read_apply]
    refine congrArg (W main_arg5 : S128x128.Idx → Ideal .f32) (funext fun a => Fin.ext ?_)
    match a with
    | ⟨0, _⟩ => show win0_5.index t (0 : Fin 2) * 128 + 1 * k.val = k.val; omega
    | ⟨1, _⟩ => show win0_5.index t (1 : Fin 2) * 128 + 1 * (y 1).val = win0_7.index t (1 : Fin 2) * 128 + 1 * (y 1).val; omega
  · show ((cfg0.win 6).blk t).view.read (Elt Ideal) (W (Pipeline.arrRef spec0 6)) (ix2 (0 : Fin 1) (y 1))
      = (W main_v28 : S1x128.Idx → Ideal .f32) (ix2 (0 : Fin 1) ⟨win0_7.index t (1 : Fin 2) * 128 + 1 * (y 1).val, by omega⟩)
    rw [View.read_apply]
    refine congrArg (W main_v28 : S1x128.Idx → Ideal .f32) (funext fun a => Fin.ext ?_)
    match a with
    | ⟨0, _⟩ => show win0_6.index t (0 : Fin 2) * 1 + 1 * 0 = 0; omega
    | ⟨1, _⟩ => show win0_6.index t (1 : Fin 2) * 128 + 1 * (y 1).val = win0_7.index t (1 : Fin 2) * 128 + 1 * (y 1).val; omega

variable (m : (ℓ : Loc nD τ sig) → Buf (Elt Ideal) ℓ) (ρ : Dev nD → PrngReg)

/-- What point `t` writes back, for the proof data of the frame run. -/
theorem flushed_eq (c : Dev nD) (t : Fin cfg0.N) :
    (dats m 0 c).flushed 7 t = ((cfg0.win 7).blk t).view.read (Elt Ideal) (whole c (V m c)) := by
  show (cfg0.win 7).cut (grid0.coords t) ((dats m 0 c).after 7 t) = _
  rw [after0_7]
  exact block_eq c (V m c) t

/-- An index of the array is in point `t`'s block iff each coordinate is in the block's range on its axis. -/
theorem mem_blk7 (t : Fin cfg0.N) (i : S262144x128.Idx) :
    i ∈ ((cfg0.win 7).blk t).view.set ↔ ∀ a : Fin 2, win0_7.index t a * S4096x128.size a ≤ (i a).val
      ∧ (i a).val < win0_7.index t a * S4096x128.size a + S4096x128.size a := by
  show i ∈ ((View.whole main_v29).slice (win0_7.rect t)).set ↔ _
  rw [View.set_slice_whole, Rect.mem_set_unit]
  exact Iff.rfl

/-- THE ARRAY after the run: row `r` lies in the block of point `r / 4096`, so the 64 blocks cover it. -/
theorem final (c : Dev nD) : (dats m 0 c).arrAt 7 cfg0.N = whole c (V m c) :=
  (dats m 0 c).arrAt_eq_of_cover 7 (whole c (V m c)) (fun t _ => flushed_eq m c t) fun i => by
    have hi0 : ((i : S262144x128.Idx) 0).val < 262144 := ((i : S262144x128.Idx) 0).isLt
    have hi1 : ((i : S262144x128.Idx) 1).val < 128 := ((i : S262144x128.Idx) 1).isLt
    have hN : cfg0.N = 64 := N_0
    have ht : ((i : S262144x128.Idx) 0).val / 4096 < cfg0.N := by rw [hN]; omega
    obtain ⟨-, -, -, -, -, -, -, -, -, -, -, -, -, -, e70, e71⟩ := idx_facts ⟨((i : S262144x128.Idx) 0).val / 4096, ht⟩
    refine ⟨⟨((i : S262144x128.Idx) 0).val / 4096, ht⟩, flush0_7 _, ?_⟩
    rw [mem_blk7]
    intro a
    match a with
    | ⟨0, _⟩ =>
      show win0_7.index ⟨((i : S262144x128.Idx) 0).val / 4096, ht⟩ (0 : Fin 2) * 4096 ≤ ((i : S262144x128.Idx) 0).val
        ∧ ((i : S262144x128.Idx) 0).val < win0_7.index ⟨((i : S262144x128.Idx) 0).val / 4096, ht⟩ (0 : Fin 2) * 4096 + 4096
      rw [e70]
      show ((i : S262144x128.Idx) 0).val / 4096 * 4096 ≤ ((i : S262144x128.Idx) 0).val
        ∧ ((i : S262144x128.Idx) 0).val < ((i : S262144x128.Idx) 0).val / 4096 * 4096 + 4096
      omega
    | ⟨1, _⟩ =>
      show win0_7.index ⟨((i : S262144x128.Idx) 0).val / 4096, ht⟩ (1 : Fin 2) * 128 ≤ ((i : S262144x128.Idx) 1).val
        ∧ ((i : S262144x128.Idx) 1).val < win0_7.index ⟨((i : S262144x128.Idx) 0).val / 4096, ht⟩ (1 : Fin 2) * 128 + 128
      rw [e71]
      omega

end Cert.KernelIdeal.Hand

end
-- ==== Proof.KernelRun.lean ====
/-
  The idealized kernel's whole run, read: the host lines before the region build the two feature matrices, the two
  weight blocks and the two bias rows from the arguments; the region leaves every edge's message in its output array;
  the host lines after it sum the messages per destination node.
-/
import proofs.«100358_j22368189678239_1_alg».proof.Proof.KernelBlock
import Idealize.ShloMosaic.Lib.StableHlo.Run

noncomputable section

open Idealize.ShloMosaic Idealize.ShloMosaic.TcCoe Idealize.SL.Sem Idealize.ShloMosaic.ValueIdx Idealize.ShloMosaic.StableHlo
open Idealize.ShloMosaic.Pipeline (Dat)

namespace Cert.KernelIdeal.Hand

open Cert.KernelIdeal Cert.KernelIdeal.Gen Cert.EdgeMlp Cert.Spec

variable (m : (ℓ : Loc nD τ sig) → Buf (Elt Ideal) ℓ) (ρ : Dev nD → PrngReg)

/-! ## The arrays the region finds -/

set_option maxHeartbeats 4000000 in
/-- The first window's array is the node-feature matrix. -/
theorem V_v10 (c : Dev nD) : (V m c main_v10 : F32 S262144x128) = nodeRows (m ((c : Thread nD τ).loc main_arg0)) (m ((c : Thread nD τ).loc main_arg1)) := by
  show StableHlo.after hostOps0 (fun b => m (c, b)) (Proc.devRef .tc main_v10) = _
  after_results_simp
  rfl

set_option maxHeartbeats 4000000 in
/-- The second window's array is the edge-feature matrix. -/
theorem V_v24 (c : Dev nD) : (V m c main_v24 : F32 S262144x16) = edgeRows (m ((c : Thread nD τ).loc main_arg1)) (m ((c : Thread nD τ).loc main_arg2)) := by
  show StableHlo.after hostOps0 (fun b => m (c, b)) (Proc.devRef .tc main_v24) = _
  after_results_simp
  rfl

set_option maxHeartbeats 4000000 in
theorem V_v25 (c : Dev nD) : (V m c main_v25 : F32 S128x128) = nodeWeights (m ((c : Thread nD τ).loc main_arg3)) := by
  show StableHlo.after hostOps0 (fun b => m (c, b)) (Proc.devRef .tc main_v25) = _
  after_results_simp
  rfl

set_option maxHeartbeats 4000000 in
theorem V_v26 (c : Dev nD) : (V m c main_v26 : F32 S16x128) = edgeWeights (m ((c : Thread nD τ).loc main_arg3)) := by
  show StableHlo.after hostOps0 (fun b => m (c, b)) (Proc.devRef .tc main_v26) = _
  after_results_simp
  rfl

set_option maxHeartbeats 4000000 in
theorem V_v27 (c : Dev nD) : (V m c main_v27 : F32 S1x128) = shapeCast S1x128 (m ((c : Thread nD τ).loc main_arg4)) shapeCasts_S128_S1x128 := by
  show StableHlo.after hostOps0 (fun b => m (c, b)) (Proc.devRef .tc main_v27) = _
  after_results_simp
  rfl

set_option maxHeartbeats 4000000 in
theorem V_v28 (c : Dev nD) : (V m c main_v28 : F32 S1x128) = shapeCast S1x128 (m ((c : Thread nD τ).loc main_arg6)) shapeCasts_S128_S1x128 := by
  show StableHlo.after hostOps0 (fun b => m (c, b)) (Proc.devRef .tc main_v28) = _
  after_results_simp
  rfl

set_option maxHeartbeats 4000000 in
/-- The destination nodes, as the lines after the region read them. -/
theorem V0_v3 (c : Dev nD) : (V0 m c (Proc.devRef .tc main_v3) : I32 S262144) = dst (m ((c : Thread nD τ).loc main_arg1)) := by
  show StableHlo.after hostOps0 (fun b => m (c, b)) (Proc.devRef .tc main_v3) = _
  after_results_simp
  rfl

/-- A vector laid out as one row, read back as a vector, is the vector. -/
theorem rowOf_cast (x : F32 S128) : rowOf (shapeCast S1x128 x shapeCasts_S128_S1x128) = x := by
  funext i
  obtain ⟨k, rfl⟩ : ∃ k : Fin 128, i = ix1 k := ⟨i 0, eq_ix1 i⟩
  exact shapeCast_a_1a_apply x _ 0 k

/-- The region's output array ends holding every edge's message. -/
theorem whole_eq (c : Dev nD) : whole c (V m c) = messages (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  unfold whole messages
  rw [V_v10 m c, V_v24 m c, V_v25 m c, V_v26 m c, V_v27 m c, V_v28 m c, V_main_arg5 m c, rowOf_cast, rowOf_cast]

/-! ## The lines after the region -/

/-- From any contents: the result buffer ends at the sum per destination node of what the region's output array
    holds. -/
theorem tail_eq (WA : Valuation τ sig (Elt Ideal)) :
    StableHlo.after hostOps1 WA (Proc.devRef .tc main_v32)
      = pooledOf (WA (Proc.devRef .tc main_v3) : I32 S262144) (WA (Proc.devRef .tc main_v29) : F32 S262144x128) := by
  after_results
  rfl

/-- The result buffer after the whole program. -/
theorem result_at (c : Dev nD) :
    Pipeline.afterTail₀ cfgs (dats m) 0 (V0 m) [hostOps1] c main_v32 = result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  unfold Pipeline.afterTail₀
  refine (tail_eq _).trans ?_
  unfold result
  refine congrArg₂ pooledOf ?_ ?_
  · exact (Pipeline.withArrays_of_ne _ c (V0 m c) _ main_v3 (by exact (by decide : ∀ w, Pipeline.arrRef spec0 w ≠ main_v3))).trans
      (V0_v3 m c)
  · exact ((Pipeline.withArrays_arr spec0 launch0.win.arr_inj c _ _ 7).trans (final m c)).trans (whole_eq m c)

/-! ## The run, read -/

/-- Every weakly fair execution terminates with the result buffer at the common function of the arguments and the
    arguments unchanged. -/
theorem run : θ_run defs (onTc (τ := τ) (main (F := Ideal))) ⟨m, fun _ => 0, ρ⟩ (fun r => ∀ c : Dev nD,
      r.2.mem ((c.tc : Thread nD τ).loc main_v32) = result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨((h c).2 main_v32 (Pipeline.mem_restRefs_of main_v32 (by decide) (by decide))).trans (result_at m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).1 5).trans (((dats m 0 c).arrAt_in 5 rfl _).trans ((A_eq m c 5).trans (V_main_arg5 m c))),
      ((h c).2 main_arg6 (Pipeline.mem_restRefs_of main_arg6 (by decide) (by decide))).trans (W_main_arg6 m (dats m) c)⟩)
    (run_main m ρ)

end Cert.KernelIdeal.Hand

end
-- ==== Proof.RefValue.lean ====
/-
  What the reference computes, read off its generated run one operation at a time: its gathers are the two feature
  matrices, its first product over the 144 joined columns splits into the product over the 128 node-feature columns
  plus the product over the 16 edge-feature columns, and the rest is the perceptron and the sum per destination node
  spelt the same way.
-/
import proofs.«100358_j22368189678239_1_alg».proof.Proof.Gen.ReferenceIdeal.Read
import proofs.«100358_j22368189678239_1_alg».proof.Proof.Spec
import Idealize.ShloMosaic.Lib.Pipeline.Value
import Idealize.ShloMosaic.Lib.ValueIdx
import Idealize.ShloMosaic.Lib.ValueLayout

noncomputable section

open Idealize.ShloMosaic Idealize.ShloMosaic.ValueIdx

namespace Cert.ReferenceIdeal.Hand

open Cert.ReferenceIdeal Cert.ReferenceIdeal.Gen Cert.ReferenceIdeal.Read Cert.EdgeMlp Cert.Spec

/-- The reference's two dimension records are plain products. -/
theorem plain_144 : PlainDot dot_S262144x144_S144x128_S262144x128_1_0_0_1_n_n :=
  ⟨rfl, rfl, lhs_main_v26_0, lhs_main_v26_1, rhs_main_v26_0, rhs_main_v26_1⟩

theorem plain_128 : PlainDot dot_S262144x128_S128x128_S262144x128_1_0_0_1_n_n :=
  ⟨rfl, rfl, lhs_main_v31_0, lhs_main_v31_1, rhs_main_v31_0, rhs_main_v31_1⟩

/-- The reference's first gather is the node-feature matrix. -/
theorem nodeRows_eq (x0 : F32 S4096x128) (x1 : I32 S2x262144) : val_main_v10 (F := Ideal) x0 x1 = nodeRows x0 x1 := rfl

/-- Its second gather is the edge-feature matrix. -/
theorem edgeRows_eq (x1 : I32 S2x262144) (x2 : F32 S4096x4096x16) : val_main_v24 (F := Ideal) x1 x2 = edgeRows x1 x2 := rfl

/-- The reference's messages are the perceptron of the two feature matrices. -/
theorem messages_eq (x0 : F32 S4096x128) (x1 : I32 S2x262144) (x2 : F32 S4096x4096x16) (x3 : F32 S144x128) (x4 : F32 S128)
    (x5 : F32 S128x128) (x6 : F32 S128) :
    val_main_v35 (F := Ideal) x0 x1 x2 x3 x4 x5 x6 = messages x0 x1 x2 x3 x4 x5 x6 := by
  unfold messages messagesOf
  rw [← nodeRows_eq, ← edgeRows_eq]
  unfold val_main_v35 val_main_v34 val_main_v33 val_main_v32 val_main_v31 val_main_v30 val_main_v29 val_main_v28 val_main_v27
    val_main_v26 val_main_v25 val_main_call0_v0 val_main_call0_cst val_main_call1_v0 val_main_call1_cst
  generalize val_main_v10 (F := Ideal) x0 x1 = X
  generalize val_main_v24 (F := Ideal) x1 x2 = E
  refine host_form (n := 262144) (K := 128) (D := 16) (KD := 144) (H := 128) (o := 128) rfl _ plain_144 _ plain_128 _ _ _ _ _ _
    _ x3 X E (nodeWeights x3) (edgeWeights x3) x4 x5 x6 (fun p l => ?_) (fun p l => ?_) (fun l k => ?_) (fun l k => ?_)
  · exact concatenate_pair_apply_left 1 X E concatenates_S262144x128_S262144x16_S262144x144_d1 _ rfl (ix2 p l) (fun b => by
      match b with
      | ⟨0, _⟩ => rfl
      | ⟨1, _⟩ => rfl)
  · exact concatenate_pair_apply_right 1 X E concatenates_S262144x128_S262144x16_S262144x144_d1 _ rfl rfl (ix2 p l)
      (fun b hb => by
        match b with
        | ⟨0, _⟩ => rfl
        | ⟨1, _⟩ => exact absurd rfl hb)
      (show l.val + 128 = 128 + l.val from Nat.add_comm _ _)
  · exact (slice2_axis0_apply 0 x3 _ l k ⟨l.val, by have := l.isLt; omega⟩ (Nat.zero_add _).symm).symm
  · exact (slice2_axis0_apply 128 x3 _ l k ⟨128 + l.val, by have := l.isLt; omega⟩ rfl).symm

/-- The reference's result is the common function of the arguments. -/
theorem result_eq (x0 : F32 S4096x128) (x1 : I32 S2x262144) (x2 : F32 S4096x4096x16) (x3 : F32 S144x128) (x4 : F32 S128)
    (x5 : F32 S128x128) (x6 : F32 S128) :
    val_main_v38 (F := Ideal) x0 x1 x2 x3 x4 x5 x6 = result x0 x1 x2 x3 x4 x5 x6 := by
  unfold val_main_v38 result
  rw [messages_eq]
  rfl

end Cert.ReferenceIdeal.Hand

end
-- ==== Proof.lean ====
/-
  A graph layer with edge features: every edge's message is a two-layer perceptron of its source node's feature row
  laid beside the edge's own feature row, and the result sums, for every node, the messages of the edges that end at
  it. The kernel gathers the two feature matrices on the host, computes the messages in a row-tiled region — the first
  layer as the node features times the first 128 rows of its weight matrix PLUS the edge features times the last 16
  rows — and sums them per node on the host again. The reference joins the two feature matrices column-wise and
  multiplies by the whole weight matrix. On the extended reals a sum over 144 columns is the sum over the first 128
  plus the sum over the last 16 (sums over a disjoint union add up; nothing needs to be finite), a product into a zero
  accumulator is the plain sum, and the format changes are the identity: both programs end at one function of the
  arguments (`Cert.Spec.result`), the kernel's read off its frame run block by block, the reference's off its run.
-/
import proofs.«100358_j22368189678239_1_alg».proof.Defs
import proofs.«100358_j22368189678239_1_alg».proof.Proof.Gen.Kernel
import proofs.«100358_j22368189678239_1_alg».proof.Proof.Gen.Kernel.Skeleton
import proofs.«100358_j22368189678239_1_alg».proof.Proof.Gen.Kernel.Launch
import proofs.«100358_j22368189678239_1_alg».proof.Proof.Gen.Kernel.Points
import proofs.«100358_j22368189678239_1_alg».proof.Proof.Gen.Kernel.Frame
import proofs.«100358_j22368189678239_1_alg».proof.Proof.Gen.KernelIdeal
import proofs.«100358_j22368189678239_1_alg».proof.Proof.Gen.KernelIdeal.Skeleton
import proofs.«100358_j22368189678239_1_alg».proof.Proof.Gen.KernelIdeal.Launch
import proofs.«100358_j22368189678239_1_alg».proof.Proof.Gen.KernelIdeal.Points
import proofs.«100358_j22368189678239_1_alg».proof.Proof.Gen.KernelIdeal.Frame
import proofs.«100358_j22368189678239_1_alg».proof.Proof.Gen.ReferenceIdeal
import proofs.«100358_j22368189678239_1_alg».proof.Proof.Gen.ReferenceIdeal.Read
import proofs.«100358_j22368189678239_1_alg».proof.Proof.Gen.Pre_finite_inputs
import proofs.«100358_j22368189678239_1_alg».proof.Proof.KernelRun
import proofs.«100358_j22368189678239_1_alg».proof.Proof.RefValue
import Idealize.ShloMosaic.Adequacy
import Idealize.ShloMosaic.Init

noncomputable section

namespace Cert.Proof

open Idealize.ShloMosaic Idealize.SL.Sem

/-- The three programs run and keep their arguments: the two kernels by their generated frames, the reference by its
    generated run with the result dropped. -/
theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories agreeing on the arguments both idealized programs end at the common function of the arguments. -/
theorem algebraic : Cert.algebraic_KernelIdeal_ReferenceIdeal := by
  intro m ρ m' ρ' _ hagree
  refine ⟨fun c => Cert.Spec.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6)),
    Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v38_eq _ _ _ _ _ _ _).trans ?_
  rw [Cert.ReferenceIdeal.Hand.result_eq, (hagree c).1, (hagree c).2.1, (hagree c).2.2.1, (hagree c).2.2.2.1,
    (hagree c).2.2.2.2.1, (hagree c).2.2.2.2.2.1, (hagree c).2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
